-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_arg18 : FVec F S512 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  main_v93

def fn_part4 {F : FTy → Type} [FloatOps F] (main_arg14 : FVec F S512 .f32) (main_arg15 : FVec F S512 .f32) (main_arg16 : FVec F S512 .f32) (main_arg17 : FVec F S512 .f32) (main_arg18 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S512 .f32) (main_arg12 : FVec F S512 .f32) (main_arg13 : FVec F S512 .f32) (main_arg14 : FVec F S512 .f32) (main_arg15 : FVec F S512 .f32) (main_arg16 : FVec F S512 .f32) (main_arg17 : FVec F S512 .f32) (main_arg18 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_v63 main_v67

def fn_part2 {F : FTy → Type} [FloatOps F] (main_arg7 : FVec F S512x512 .f32) (main_arg8 : FVec F S512x512 .f32) (main_arg9 : FVec F S512x512 .f32) (main_arg10 : FVec F S512x512 .f32) (main_arg11 : FVec F S512 .f32) (main_arg12 : FVec F S512 .f32) (main_arg13 : FVec F S512 .f32) (main_arg14 : FVec F S512 .f32) (main_arg15 : FVec F S512 .f32) (main_arg16 : FVec F S512 .f32) (main_arg17 : FVec F S512 .f32) (main_arg18 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_arg16 main_arg17 main_arg18 main_v48 main_v49 main_v50

def fn_part1 {F : FTy → Type} [FloatOps F] (main_arg4 : FVec F S512x512 .f32) (main_arg5 : FVec F S512x512 .f32) (main_arg6 : FVec F S512x512 .f32) (main_arg7 : FVec F S512x512 .f32) (main_arg8 : FVec F S512x512 .f32) (main_arg9 : FVec F S512x512 .f32) (main_arg10 : FVec F S512x512 .f32) (main_arg11 : FVec F S512 .f32) (main_arg12 : FVec F S512 .f32) (main_arg13 : FVec F S512 .f32) (main_arg14 : FVec F S512 .f32) (main_arg15 : FVec F S512 .f32) (main_arg16 : FVec F S512 .f32) (main_arg17 : FVec F S512 .f32) (main_arg18 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x512 .f32) (main_arg1 : FVec F S16384x512 .f32) (main_arg2 : FVec F S16384x512 .f32) (main_arg3 : FVec F S512x512 .f32) (main_arg4 : FVec F S512x512 .f32) (main_arg5 : FVec F S512x512 .f32) (main_arg6 : FVec F S512x512 .f32) (main_arg7 : FVec F S512x512 .f32) (main_arg8 : FVec F S512x512 .f32) (main_arg9 : FVec F S512x512 .f32) (main_arg10 : FVec F S512x512 .f32) (main_arg11 : FVec F S512 .f32) (main_arg12 : FVec F S512 .f32) (main_arg13 : FVec F S512 .f32) (main_arg14 : FVec F S512 .f32) (main_arg15 : FVec F S512 .f32) (main_arg16 : FVec F S512 .f32) (main_arg17 : FVec F S512 .f32) (main_arg18 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x512 : Shape := ⟨2, ![16384, 512]⟩
abbrev S512x512 : Shape := ⟨2, ![512, 512]⟩
abbrev S512 : Shape := ⟨1, ![512]⟩
abbrev S1x512 : Shape := ⟨2, ![1, 512]⟩
abbrev S1024x512 : Shape := ⟨2, ![1024, 512]⟩

abbrev nBuf : Space → Nat
  | .hbm => 37
  | .vmem => 22
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512x512, .bf16⟩
  | .hbm, ⟨20, _⟩ => ⟨S512x512, .bf16⟩
  | .hbm, ⟨21, _⟩ => ⟨S512x512, .bf16⟩
  | .hbm, ⟨22, _⟩ => ⟨S512x512, .bf16⟩
  | .hbm, ⟨23, _⟩ => ⟨S512x512, .bf16⟩
  | .hbm, ⟨24, _⟩ => ⟨S512x512, .bf16⟩
  | .hbm, ⟨25, _⟩ => ⟨S512x512, .bf16⟩
  | .hbm, ⟨26, _⟩ => ⟨S512x512, .bf16⟩
  | .hbm, ⟨27, _⟩ => ⟨S512, .f32⟩
  | .hbm, ⟨28, _⟩ => ⟨S1x512, .f32⟩
  | .hbm, ⟨29, _⟩ => ⟨S512, .f32⟩
  | .hbm, ⟨30, _⟩ => ⟨S1x512, .f32⟩
  | .hbm, ⟨31, _⟩ => ⟨S512, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S16384x512, .f32⟩
  | .hbm, ⟨36, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16_0 : Ref sig .tc := ⟨.hbm, 35, rfl⟩
abbrev main_v16_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bitsLt_bf16_f32 : FTy.bits .bf16 < FTy.bits .f32
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .f32 = 32 ∨ (Rect.block (s := S16384x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x512.size a ≤ S1x512.size a
  hwx0_14 : ∀ i : grid0.Coords, EltTy.bits .f32 = 32 ∨ (Rect.block (s := S1x512) S1x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x512.size a ≤ S16384x512.size a
  hwx0_15 : ∀ i : grid0.Coords, EltTy.bits .f32 = 32 ∨ (Rect.block (s := S16384x512) S1024x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x512.size a ≤ S16384x512.size a
  hwx0_16 : ∀ i : grid0.Coords, EltTy.bits .f32 = 32 ∨ (Rect.block (s := S16384x512) S1024x512.size (cc0_transform_16 i) (hinb0_16 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v15) S1x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v16_0) S1024x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v16_1) S1024x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S16384x2048 : Shape := ⟨2, ![16384, 2048]⟩
abbrev S1x2048 : Shape := ⟨2, ![1, 2048]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512x2048, .f32⟩
  | .hbm, ⟨20, _⟩ => ⟨S512x2048, .f32⟩
  | .hbm, ⟨21, _⟩ => ⟨S2048, .f32⟩
  | .hbm, ⟨22, _⟩ => ⟨S2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S1x2048, .f32⟩
  | .hbm, ⟨30, _⟩ => ⟨S16384x2048, .f32⟩
  | .hbm, ⟨31, _⟩ => ⟨S16384x2048, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S_, .f32⟩
  | .hbm, ⟨47, _⟩ => ⟨S16384x512, .f32⟩
  | .hbm, ⟨48, _⟩ => ⟨S16384x512, .f32⟩
  | .hbm, ⟨49, _⟩ => ⟨S_, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S_, .f32⟩
  | .hbm, ⟨56, _⟩ => ⟨S16384x512, .f32⟩
  | .hbm, ⟨57, _⟩ => ⟨S16384x512, .f32⟩
  | .hbm, ⟨58, _⟩ => ⟨S_, .f32⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S16384x512, .f32⟩
  | .hbm, ⟨65, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  concatenates_S512x512_S512x512_S512x512_S512x512_S512x2048_d1 : Shape.Concatenates [S512x512, S512x512, S512x512, S512x512] S512x2048 1
  concatenates_S512_S512_S512_S512_S2048_d0 : Shape.Concatenates [S512, S512, S512, S512] S2048 0
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  dot_S16384x512_S512x2048_S16384x2048_1_0_0_1_n_n_wf : DotDims.WF S16384x512 S512x2048 S16384x2048 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.KernelBody.lean ====
/-
  What the kernel's body stores, entry by entry, as the LSTM formulas of the blocks it loads.

  At one grid point the body sees a block of 1024 rows of `x`, `h` and `c`, the eight whole 512×512 weight matrices
  and the four 1×512 rows of summed biases. Every matrix product is taken into a zero accumulator, so at row `p`,
  column `q` it is the plain sum `Σ_k a[p,k]·w[k,q]` (rounding to bf16 is the identity on the extended reals, and a
  shape cast to the same shape changes nothing); a bias row broadcast over the rows reads `b[0,q]`. So a gate's
  pre-activation inside the block is
      Σ_k x[p,k]·wi[k,q] + Σ_k h[p,k]·wh[k,q] + b[0,q]          (`blockPre`),
  the value stored to the cell-state output is `σ(pre_f)·c[p,q] + σ(pre_i)·tanh(pre_g)` and the value stored to the
  hidden-state output is `σ(pre_o)·tanh(of that)`.
-/
import proofs.«100056_j56435870269511_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.Lstm.Body

open Cert.KernelIdeal Cert.KernelIdeal.Gen Idealize.ShloMosaic Idealize.ShloMosaic.ValueIdx

/-! ## The matrix product's operand indices -/

theorem lhs0 (i : S1024x512.Idx) (u : dot_S1024x512_S512x512_S1024x512_1_0_0_1_n_n.contr.Idx) : (dot_S1024x512_S512x512_S1024x512_1_0_0_1_n_n.lhsIdx i u 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl

theorem lhs1 (i : S1024x512.Idx) (u : dot_S1024x512_S512x512_S1024x512_1_0_0_1_n_n.contr.Idx) : (dot_S1024x512_S512x512_S1024x512_1_0_0_1_n_n.lhsIdx i u 1).val = (u ⟨0, by decide⟩).val :=
  dot_S1024x512_S512x512_S1024x512_1_0_0_1_n_n.lhsIdx_val_of_single rfl i u

theorem rhs0 (i : S1024x512.Idx) (u : dot_S1024x512_S512x512_S1024x512_1_0_0_1_n_n.contr.Idx) : (dot_S1024x512_S512x512_S1024x512_1_0_0_1_n_n.rhsIdx i u 0).val = (u ⟨0, by decide⟩).val :=
  dot_S1024x512_S512x512_S1024x512_1_0_0_1_n_n.rhsIdx_val_of_single rfl i u

theorem rhs1 (i : S1024x512.Idx) (u : dot_S1024x512_S512x512_S1024x512_1_0_0_1_n_n.contr.Idx) : (dot_S1024x512_S512x512_S1024x512_1_0_0_1_n_n.rhsIdx i u 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- A [1024,512] by [512,512] product into the zero accumulator, at row `p`, column `q`: row `p` against column `q`. -/
theorem matmul_at (a : FVec Ideal S1024x512 .bf16) (w : FVec Ideal S512x512 .bf16) (p : Fin 1024) (q : Fin 512) :
    matmul dot_S1024x512_S512x512_S1024x512_1_0_0_1_n_n none a w (constant (F := Ideal) S1024x512 .f32 0x00000000#32) (ix2 p q)
      = ∑ k : Fin 512, a (ix2 p k) * w (ix2 k q) := by
  refine (Ideal.matmul_constant_zero_apply dot_S1024x512_S512x512_S1024x512_1_0_0_1_n_n none a w (ix2 p q)).trans ?_
  rw [← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun a => Fin.ext (by
    match a with
    | ⟨0, _⟩ => exact lhs0 _ _
    | ⟨1, _⟩ => exact (lhs1 _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun a => Fin.ext (by
    match a with
    | ⟨0, _⟩ => exact (rhs0 _ _).trans hk
    | ⟨1, _⟩ => exact rhs1 _ _)
  rw [el, er]

/-- The same with the operands as the body forms them: the left one rounded to bf16, the right one shape-cast to its own shape. -/
theorem dot_at (a : FVec Ideal S1024x512 .f32) (w : FVec Ideal S512x512 .bf16) (p : Fin 1024) (q : Fin 512) :
    matmul dot_S1024x512_S512x512_S1024x512_1_0_0_1_n_n none (truncf .bf16 a bitsLt_bf16_f32) (shapeCast S512x512 w shapeCasts_S512x512_S512x512)
        (constant (F := Ideal) S1024x512 .f32 0x00000000#32) (ix2 p q)
      = ∑ k : Fin 512, a (ix2 p k) * w (ix2 k q) := by
  rw [shapeCast_self]
  exact matmul_at (truncf .bf16 a bitsLt_bf16_f32) w p q

/-- A 1×512 row broadcast over 1024 rows, at row `p`, column `q`: the row's entry `q`. -/
theorem bias_at (b : FVec Ideal S1x512 .f32) (p : Fin 1024) (q : Fin 512) :
    broadcastTo S1024x512 (shapeCast S1x512 b shapeCasts_S1x512_S1x512) broadcasts_S1x512_S1024x512 (ix2 p q)
      = b (ix2 (0 : Fin 1) q) := by
  rw [shapeCast_self]
  refine broadcastTo_apply b broadcasts_S1x512_S1024x512 (ix2 p q) (ix2 (0 : Fin 1) q) fun a => ?_
  match a with
  | ⟨0, _⟩ => show 0 = if (1 : Nat) = 1 then 0 else _; rw [if_pos rfl]
  | ⟨1, _⟩ => show q.val = if (512 : Nat) = 1 then 0 else q.val; rw [if_neg (by decide)]

/-! ## A gate's pre-activation inside a block, and the two stored values -/

/-- Row `p` of the `x` block against column `q` of `wi`, plus row `p` of the `h` block against column `q` of `wh`,
    plus the bias row at `q`. -/
def blockPre (xb hb : FVec Ideal S1024x512 .f32) (wi wh : FVec Ideal S512x512 .bf16) (b : FVec Ideal S1x512 .f32)
    (p : Fin 1024) (q : Fin 512) : EReal :=
  ((∑ k : Fin 512, xb (ix2 p k) * wi (ix2 k q)) + (∑ k : Fin 512, hb (ix2 p k) * wh (ix2 k q))) + b (ix2 (0 : Fin 1) q)

/-- The forget gate times the old cell state. -/
theorem forget_at (x0 x1 : FVec Ideal S1024x512 .f32) (wi wh : FVec Ideal S512x512 .bf16) (b : FVec Ideal S1x512 .f32)
    (c0 : FVec Ideal S1024x512 .f32) (p : Fin 1024) (q : Fin 512) :
    k0_pay5 (F := Ideal) x0 x1 wi wh b c0 (ix2 p q) = Ideal.logistic (blockPre x0 x1 wi wh b p q) * c0 (ix2 p q) := by
  unfold k0_pay5 k0_pay3 k0_pay4
  show Ideal.logistic ((matmul dot_S1024x512_S512x512_S1024x512_1_0_0_1_n_n none (truncf .bf16 x0 bitsLt_bf16_f32) (shapeCast S512x512 wi shapeCasts_S512x512_S512x512) (constant (F := Ideal) S1024x512 .f32 0x00000000#32) (ix2 p q)
      + matmul dot_S1024x512_S512x512_S1024x512_1_0_0_1_n_n none (truncf .bf16 x1 bitsLt_bf16_f32) (shapeCast S512x512 wh shapeCasts_S512x512_S512x512) (constant (F := Ideal) S1024x512 .f32 0x00000000#32) (ix2 p q))
      + broadcastTo S1024x512 (shapeCast S1x512 b shapeCasts_S1x512_S1x512) broadcasts_S1x512_S1024x512 (ix2 p q)) * c0 (ix2 p q) = _
  rw [dot_at, dot_at, bias_at]
  rfl

/-- The input gate. -/
theorem input_at (x0 x1 : FVec Ideal S1024x512 .f32) (wi wh : FVec Ideal S512x512 .bf16) (b : FVec Ideal S1x512 .f32)
    (p : Fin 1024) (q : Fin 512) :
    k0_pay6 (F := Ideal) x0 x1 wi wh b (ix2 p q) = Ideal.logistic (blockPre x0 x1 wi wh b p q) := by
  unfold k0_pay6 k0_pay3 k0_pay4
  show Ideal.logistic ((matmul dot_S1024x512_S512x512_S1024x512_1_0_0_1_n_n none (truncf .bf16 x0 bitsLt_bf16_f32) (shapeCast S512x512 wi shapeCasts_S512x512_S512x512) (constant (F := Ideal) S1024x512 .f32 0x00000000#32) (ix2 p q)
      + matmul dot_S1024x512_S512x512_S1024x512_1_0_0_1_n_n none (truncf .bf16 x1 bitsLt_bf16_f32) (shapeCast S512x512 wh shapeCasts_S512x512_S512x512) (constant (F := Ideal) S1024x512 .f32 0x00000000#32) (ix2 p q))
      + broadcastTo S1024x512 (shapeCast S1x512 b shapeCasts_S1x512_S1x512) broadcasts_S1x512_S1024x512 (ix2 p q)) = _
  rw [dot_at, dot_at, bias_at]
  rfl

/-- The value stored to the cell-state output, composed as the body composes it. -/
theorem cell_at (x0 x1 x2 : FVec Ideal S1024x512 .f32) (x3 x4 x5 x7 x8 x9 : FVec Ideal S512x512 .bf16)
    (x11 x12 x13 : FVec Ideal S1x512 .f32) (p : Fin 1024) (q : Fin 512) :
    k0_pay1 (F := Ideal) (k0_pay4 x1) (k0_pay5 x0 x1 x4 x8 x12 x2) (k0_pay6 x0 x1 x3 x7 x11) (k0_pay7 x0 x5) x9 x13 (ix2 p q)
      = Ideal.logistic (blockPre x0 x1 x4 x8 x12 p q) * x2 (ix2 p q)
        + Ideal.logistic (blockPre x0 x1 x3 x7 x11 p q) * Ideal.tanh (blockPre x0 x1 x5 x9 x13 p q) := by
  unfold k0_pay1 k0_pay7 k0_pay3 k0_pay4
  show k0_pay5 (F := Ideal) x0 x1 x4 x8 x12 x2 (ix2 p q) + k0_pay6 (F := Ideal) x0 x1 x3 x7 x11 (ix2 p q)
      * Ideal.tanh ((matmul dot_S1024x512_S512x512_S1024x512_1_0_0_1_n_n none (truncf .bf16 x0 bitsLt_bf16_f32) (shapeCast S512x512 x5 shapeCasts_S512x512_S512x512) (constant (F := Ideal) S1024x512 .f32 0x00000000#32) (ix2 p q)
        + matmul dot_S1024x512_S512x512_S1024x512_1_0_0_1_n_n none (truncf .bf16 x1 bitsLt_bf16_f32) (shapeCast S512x512 x9 shapeCasts_S512x512_S512x512) (constant (F := Ideal) S1024x512 .f32 0x00000000#32) (ix2 p q))
        + broadcastTo S1024x512 (shapeCast S1x512 x13 shapeCasts_S1x512_S1x512) broadcasts_S1x512_S1024x512 (ix2 p q)) = _
  rw [forget_at, input_at, dot_at, dot_at, bias_at]
  rfl

/-- The value stored to the hidden-state output, composed as the body composes it. -/
theorem hidden_at (x0 x1 x2 : FVec Ideal S1024x512 .f32) (x3 x4 x5 x6 x7 x8 x9 x10 : FVec Ideal S512x512 .bf16)
    (x11 x12 x13 x14 : FVec Ideal S1x512 .f32) (p : Fin 1024) (q : Fin 512) :
    k0_pay2 (F := Ideal) (k0_pay3 x0) (k0_pay4 x1) (k0_pay5 x0 x1 x4 x8 x12 x2) (k0_pay6 x0 x1 x3 x7 x11) (k0_pay7 x0 x5) x9 x13 x6 x10 x14 (ix2 p q)
      = Ideal.logistic (blockPre x0 x1 x6 x10 x14 p q)
        * Ideal.tanh (Ideal.logistic (blockPre x0 x1 x4 x8 x12 p q) * x2 (ix2 p q)
          + Ideal.logistic (blockPre x0 x1 x3 x7 x11 p q) * Ideal.tanh (blockPre x0 x1 x5 x9 x13 p q)) := by
  unfold k0_pay2
  show Ideal.logistic ((matmul dot_S1024x512_S512x512_S1024x512_1_0_0_1_n_n none (k0_pay3 (F := Ideal) x0) (shapeCast S512x512 x6 shapeCasts_S512x512_S512x512) (constant (F := Ideal) S1024x512 .f32 0x00000000#32) (ix2 p q)
        + matmul dot_S1024x512_S512x512_S1024x512_1_0_0_1_n_n none (k0_pay4 (F := Ideal) x1) (shapeCast S512x512 x10 shapeCasts_S512x512_S512x512) (constant (F := Ideal) S1024x512 .f32 0x00000000#32) (ix2 p q))
        + broadcastTo S1024x512 (shapeCast S1x512 x14 shapeCasts_S1x512_S1x512) broadcasts_S1x512_S1024x512 (ix2 p q))
      * Ideal.tanh (k0_pay1 (F := Ideal) (k0_pay4 x1) (k0_pay5 x0 x1 x4 x8 x12 x2) (k0_pay6 x0 x1 x3 x7 x11) (k0_pay7 x0 x5) x9 x13 (ix2 p q)) = _
  rw [cell_at]
  unfold k0_pay3 k0_pay4
  rw [dot_at, dot_at, bias_at]
  rfl

end Cert.Lstm.Body

end
-- ==== Proof.LstmSpec.lean ====
/-
  One step of an LSTM cell on a batch of 16384 rows with 512 input and 512 hidden features, as a function of the
  nineteen argument arrays, entry by entry, on the extended reals.

  For a gate with input weights `wi`, hidden weights `wh` and biases `bi`, `bh`, the pre-activation at row `r`,
  column `j` is
      z r j = Σ_k x[r,k]·wi[k,j] + Σ_k h[r,k]·wh[k,j] + (bi[j] + bh[j]).
  The four gates are `i = σ(z_i)`, `f = σ(z_f)`, `g = tanh(z_g)`, `o = σ(z_o)` with σ the logistic function
  `1 / (1 + e^(-z))`; the new cell state is `c' = f·c + i·g` and the new hidden state `h' = o·tanh(c')`.

  Also here: the one algebraic fact the two programs differ by — adding two biases one after the other is adding
  their sum, which on the extended reals is plain associativity of `+` (no finiteness is needed: `+` on the
  extended reals is a commutative monoid) —, the logistic function spelt as the quotient, and the float pattern of 1.
-/
import Idealize.ShloMosaic.PureOps.Ideal
import Idealize.ShloMosaic.Lib.ValueIdx

noncomputable section

namespace Cert.Lstm

open Idealize.ShloMosaic Idealize.ShloMosaic.ValueIdx

/-- batch × features (input and hidden widths are both 512). -/
abbrev SB : Shape := ⟨2, ![16384, 512]⟩
/-- one gate's weight matrix. -/
abbrev SW : Shape := ⟨2, ![512, 512]⟩
/-- one gate's bias vector. -/
abbrev SV : Shape := ⟨1, ![512]⟩

/-- The nineteen arguments: the input `x`, the previous hidden and cell states `h`, `c`, and per gate (i, f, g, o)
    the input weights, the hidden weights, the input bias and the hidden bias. -/
structure Args where
  x : SB.Idx → EReal
  h : SB.Idx → EReal
  c : SB.Idx → EReal
  wii : SW.Idx → EReal
  wif : SW.Idx → EReal
  wig : SW.Idx → EReal
  wio : SW.Idx → EReal
  whi : SW.Idx → EReal
  whf : SW.Idx → EReal
  whg : SW.Idx → EReal
  who : SW.Idx → EReal
  bxi : SV.Idx → EReal
  bxf : SV.Idx → EReal
  bxg : SV.Idx → EReal
  bxo : SV.Idx → EReal
  bhi : SV.Idx → EReal
  bhf : SV.Idx → EReal
  bhg : SV.Idx → EReal
  bho : SV.Idx → EReal

/-- A gate's pre-activation at row `r`, column `j`: row `r` of `x` against column `j` of `wi`, plus row `r` of `h`
    against column `j` of `wh`, plus the sum of the two biases at `j`. -/
def pre (x h : SB.Idx → EReal) (wi wh : SW.Idx → EReal) (bi bh : SV.Idx → EReal) (r : Fin 16384) (j : Fin 512) : EReal :=
  ((∑ k : Fin 512, x (ix2 r k) * wi (ix2 k j)) + (∑ k : Fin 512, h (ix2 r k) * wh (ix2 k j))) + (bi (ix1 j) + bh (ix1 j))

/-- The input gate. -/
def gateI (p : Args) (r : Fin 16384) (j : Fin 512) : EReal := Ideal.logistic (pre p.x p.h p.wii p.whi p.bxi p.bhi r j)
/-- The forget gate. -/
def gateF (p : Args) (r : Fin 16384) (j : Fin 512) : EReal := Ideal.logistic (pre p.x p.h p.wif p.whf p.bxf p.bhf r j)
/-- The candidate. -/
def gateG (p : Args) (r : Fin 16384) (j : Fin 512) : EReal := Ideal.tanh (pre p.x p.h p.wig p.whg p.bxg p.bhg r j)
/-- The output gate. -/
def gateO (p : Args) (r : Fin 16384) (j : Fin 512) : EReal := Ideal.logistic (pre p.x p.h p.wio p.who p.bxo p.bho r j)

/-- The new cell state at (r, j): `f·c + i·g`. -/
def cellC (p : Args) (r : Fin 16384) (j : Fin 512) : EReal := gateF p r j * p.c (ix2 r j) + gateI p r j * gateG p r j
/-- The new hidden state at (r, j): `o·tanh(c')`. -/
def cellH (p : Args) (r : Fin 16384) (j : Fin 512) : EReal := gateO p r j * Ideal.tanh (cellC p r j)

/-- The new cell state, as an array. -/
def newC (p : Args) : SB.Idx → EReal := fun i => cellC p (i 0) (i 1)
/-- The new hidden state, as an array. -/
def newH (p : Args) : SB.Idx → EReal := fun i => cellH p (i 0) (i 1)

theorem newC_ix2 (p : Args) (r : Fin 16384) (j : Fin 512) : newC p (ix2 r j) = cellC p r j := rfl
theorem newH_ix2 (p : Args) (r : Fin 16384) (j : Fin 512) : newH p (ix2 r j) = cellH p r j := rfl

/-- Adding the two biases one after the other is adding their sum. -/
theorem pre_two_steps (x h : SB.Idx → EReal) (wi wh : SW.Idx → EReal) (bi bh : SV.Idx → EReal) (r : Fin 16384) (j : Fin 512) :
    (((∑ k : Fin 512, x (ix2 r k) * wi (ix2 k j)) + (∑ k : Fin 512, h (ix2 r k) * wh (ix2 k j))) + bi (ix1 j)) + bh (ix1 j)
      = pre x h wi wh bi bh r j := by
  unfold pre
  exact add_assoc _ _ _

/-- The float pattern 0x3F800000 is the number 1. -/
theorem one_f32 : Ideal.ofBits .f32 0x3F800000#32 = 1 := by
  simp [Ideal.ofBits, Ideal.ieee, -EReal.coe_mul]; norm_num

/-- The logistic function is the quotient `1 / (1 + e^(-z))`, with 1 given by its float pattern. -/
theorem logistic_as_quotient (z : EReal) :
    Ideal.div (Ideal.ofBits .f32 0x3F800000#32) (Ideal.ofBits .f32 0x3F800000#32 + Ideal.exp (-z)) = Ideal.logistic z := by
  rw [one_f32]; rfl

end Cert.Lstm

end
-- ==== Proof.KernelBlocks.lean ====
/-
  From the blocks the grid points write to the two result arrays.

  The grid has 16 points. At point `t` the windows of `x`, `h`, `c` and of the two results hold rows
  `1024·t … 1024·t + 1023` of their arrays (block row index `t`, block column index 0); the eight weight windows and
  the four bias windows hold their whole arrays at every point (block index (0, 0)). The weight arrays the region finds
  are the weight arguments rounded to bf16 — the arguments themselves on the extended reals —, and each bias array is
  the sum of the gate's two bias arguments laid out as one row. So inside block `t` a gate's pre-activation at (p, q)
  is the specification's at (1024·t + p, q), what point `t` writes back is block `t` of the specification's arrays,
  and since row `r` lies in block `r / 1024` the sixteen blocks cover each result array: the arrays end holding the new
  hidden state and the new cell state.
-/
import proofs.«100056_j56435870269511_2_alg».proof.Proof.Gen.KernelIdeal.Value
import proofs.«100056_j56435870269511_2_alg».proof.Proof.KernelBody
import proofs.«100056_j56435870269511_2_alg».proof.Proof.LstmSpec
import Idealize.ShloMosaic.Lib.StableHlo.Run
import Idealize.ShloMosaic.Lib.Pipeline.Value
import Idealize.ShloMosaic.Lib.ValueIdx

noncomputable section

namespace Cert.Lstm.Kernel

open Cert.KernelIdeal Cert.KernelIdeal.Gen Idealize.ShloMosaic Idealize.ShloMosaic.TcCoe Idealize.SL.Sem
open Idealize.ShloMosaic.ValueIdx Cert.Lstm
open Idealize.ShloMosaic.Pipeline (Dat)

variable (m : (ℓ : Loc nD τ sig) → Buf (Elt Ideal) ℓ) (ρ : Dev nD → PrngReg)

/-- The nineteen arguments as core `c` is launched with them. -/
def args (c : Dev nD) : Args :=
  ⟨m ((c : Thread nD τ).loc main_arg0),
    m ((c : Thread nD τ).loc main_arg1),
    m ((c : Thread nD τ).loc main_arg2),
    m ((c : Thread nD τ).loc main_arg3),
    m ((c : Thread nD τ).loc main_arg4),
    m ((c : Thread nD τ).loc main_arg5),
    m ((c : Thread nD τ).loc main_arg6),
    m ((c : Thread nD τ).loc main_arg7),
    m ((c : Thread nD τ).loc main_arg8),
    m ((c : Thread nD τ).loc main_arg9),
    m ((c : Thread nD τ).loc main_arg10),
    m ((c : Thread nD τ).loc main_arg11),
    m ((c : Thread nD τ).loc main_arg12),
    m ((c : Thread nD τ).loc main_arg13),
    m ((c : Thread nD τ).loc main_arg14),
    m ((c : Thread nD τ).loc main_arg15),
    m ((c : Thread nD τ).loc main_arg16),
    m ((c : Thread nD τ).loc main_arg17),
    m ((c : Thread nD τ).loc main_arg18)⟩

theorem hz : (![0, 0] : Fin 2 → Nat) = fun _ => 0 := funext fun a => by fin_cases a <;> rfl

/-- Two functions on a 1024×512 block agree when they agree at every (p, q). -/
theorem ext_block (f g : S1024x512.Idx → EReal) (h : ∀ (p : Fin 1024) (q : Fin 512), f (ix2 p q) = g (ix2 p q)) : f = g :=
  funext fun y => by rw [eq_ix2 y]; exact h _ _

/-! ## The block index of each window at a grid point, decided over the sixteen points -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
theorem idx14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)
theorem idx15 : ∀ t : Fin cfg0.N, win0_15.index t (0 : Fin 2) = t.val ∧ win0_15.index t (1 : Fin 2) = 0 :=
  (by decide +kernel : ∀ t : Fin grid0.N, win0_15.index t (0 : Fin 2) = t.val ∧ win0_15.index t (1 : Fin 2) = 0)
theorem idx16 : ∀ t : Fin cfg0.N, win0_16.index t (0 : Fin 2) = t.val ∧ win0_16.index t (1 : Fin 2) = 0 :=
  (by decide +kernel : ∀ t : Fin grid0.N, win0_16.index t (0 : Fin 2) = t.val ∧ win0_16.index t (1 : Fin 2) = 0)

/-! ## The arrays the region finds that the host wrote: rounded weights, summed bias rows -/

/-- The region finds `wii` rounded to bf16: on the extended reals, `wii` itself. -/
theorem V_wii (c : Dev nD) : (V m c main_v0 : S512x512.Idx → EReal) = (args m c).wii := by
  dsimp only [V, hostOps0]
  after_results
  rfl
/-- The region finds `wif` rounded to bf16: on the extended reals, `wif` itself. -/
theorem V_wif (c : Dev nD) : (V m c main_v1 : S512x512.Idx → EReal) = (args m c).wif := by
  dsimp only [V, hostOps0]
  after_results
  rfl
/-- The region finds `wig` rounded to bf16: on the extended reals, `wig` itself. -/
theorem V_wig (c : Dev nD) : (V m c main_v2 : S512x512.Idx → EReal) = (args m c).wig := by
  dsimp only [V, hostOps0]
  after_results
  rfl
/-- The region finds `wio` rounded to bf16: on the extended reals, `wio` itself. -/
theorem V_wio (c : Dev nD) : (V m c main_v3 : S512x512.Idx → EReal) = (args m c).wio := by
  dsimp only [V, hostOps0]
  after_results
  rfl
/-- The region finds `whi` rounded to bf16: on the extended reals, `whi` itself. -/
theorem V_whi (c : Dev nD) : (V m c main_v4 : S512x512.Idx → EReal) = (args m c).whi := by
  dsimp only [V, hostOps0]
  after_results
  rfl
/-- The region finds `whf` rounded to bf16: on the extended reals, `whf` itself. -/
theorem V_whf (c : Dev nD) : (V m c main_v5 : S512x512.Idx → EReal) = (args m c).whf := by
  dsimp only [V, hostOps0]
  after_results
  rfl
/-- The region finds `whg` rounded to bf16: on the extended reals, `whg` itself. -/
theorem V_whg (c : Dev nD) : (V m c main_v6 : S512x512.Idx → EReal) = (args m c).whg := by
  dsimp only [V, hostOps0]
  after_results
  rfl
/-- The region finds `who` rounded to bf16: on the extended reals, `who` itself. -/
theorem V_who (c : Dev nD) : (V m c main_v7 : S512x512.Idx → EReal) = (args m c).who := by
  dsimp only [V, hostOps0]
  after_results
  rfl

/-- The region finds the row of `bxi + bhi`. -/
theorem V_bxi_at (c : Dev nD) (q : Fin 512) :
    (V m c main_v9 : S1x512.Idx → EReal) (ix2 (0 : Fin 1) q) = (args m c).bxi (ix1 q) + (args m c).bhi (ix1 q) := by
  have e : (V m c main_v9 : S1x512.Idx → EReal)
      = shapeCast S1x512 (addf (F := Ideal) (s := S512) (φ := .f32) (m ((c : Thread nD τ).loc main_arg11)) (m ((c : Thread nD τ).loc main_arg15))) shapeCasts_S512_S1x512 := by
    dsimp only [V, hostOps0]
    after_results
    rfl
  rw [e]
  refine (shapeCast_addUnit_apply ![512] _ shapeCasts_S512_S1x512 (ix2 (0 : Fin 1) q)).trans ?_
  have e' : (fun a : Fin 1 => (ix2 (0 : Fin 1) q) a.succ) = ix1 q := funext fun a => by
    match a with
    | ⟨0, _⟩ => rfl
  rw [e']
  rfl
/-- The region finds the row of `bxf + bhf`. -/
theorem V_bxf_at (c : Dev nD) (q : Fin 512) :
    (V m c main_v11 : S1x512.Idx → EReal) (ix2 (0 : Fin 1) q) = (args m c).bxf (ix1 q) + (args m c).bhf (ix1 q) := by
  have e : (V m c main_v11 : S1x512.Idx → EReal)
      = shapeCast S1x512 (addf (F := Ideal) (s := S512) (φ := .f32) (m ((c : Thread nD τ).loc main_arg12)) (m ((c : Thread nD τ).loc main_arg16))) shapeCasts_S512_S1x512 := by
    dsimp only [V, hostOps0]
    after_results
    rfl
  rw [e]
  refine (shapeCast_addUnit_apply ![512] _ shapeCasts_S512_S1x512 (ix2 (0 : Fin 1) q)).trans ?_
  have e' : (fun a : Fin 1 => (ix2 (0 : Fin 1) q) a.succ) = ix1 q := funext fun a => by
    match a with
    | ⟨0, _⟩ => rfl
  rw [e']
  rfl
/-- The region finds the row of `bxg + bhg`. -/
theorem V_bxg_at (c : Dev nD) (q : Fin 512) :
    (V m c main_v13 : S1x512.Idx → EReal) (ix2 (0 : Fin 1) q) = (args m c).bxg (ix1 q) + (args m c).bhg (ix1 q) := by
  have e : (V m c main_v13 : S1x512.Idx → EReal)
      = shapeCast S1x512 (addf (F := Ideal) (s := S512) (φ := .f32) (m ((c : Thread nD τ).loc main_arg13)) (m ((c : Thread nD τ).loc main_arg17))) shapeCasts_S512_S1x512 := by
    dsimp only [V, hostOps0]
    after_results
    rfl
  rw [e]
  refine (shapeCast_addUnit_apply ![512] _ shapeCasts_S512_S1x512 (ix2 (0 : Fin 1) q)).trans ?_
  have e' : (fun a : Fin 1 => (ix2 (0 : Fin 1) q) a.succ) = ix1 q := funext fun a => by
    match a with
    | ⟨0, _⟩ => rfl
  rw [e']
  rfl
/-- The region finds the row of `bxo + bho`. -/
theorem V_bxo_at (c : Dev nD) (q : Fin 512) :
    (V m c main_v15 : S1x512.Idx → EReal) (ix2 (0 : Fin 1) q) = (args m c).bxo (ix1 q) + (args m c).bho (ix1 q) := by
  have e : (V m c main_v15 : S1x512.Idx → EReal)
      = shapeCast S1x512 (addf (F := Ideal) (s := S512) (φ := .f32) (m ((c : Thread nD τ).loc main_arg14)) (m ((c : Thread nD τ).loc main_arg18))) shapeCasts_S512_S1x512 := by
    dsimp only [V, hostOps0]
    after_results
    rfl
  rw [e]
  refine (shapeCast_addUnit_apply ![512] _ shapeCasts_S512_S1x512 (ix2 (0 : Fin 1) q)).trans ?_
  have e' : (fun a : Fin 1 => (ix2 (0 : Fin 1) q) a.succ) = ix1 q := funext fun a => by
    match a with
    | ⟨0, _⟩ => rfl
  rw [e']
  rfl

/-! ## Each window's block at point `t`, read at an entry -/

/-- Row `p` of `x`'s block at point `t` is row `1024·t + p` of `x`. -/
theorem x_block (c : Dev nD) (t : Fin cfg0.N) (p : Fin 1024) (k : Fin 512) (r : Fin 16384) (hr : r.val = t.val * 1024 + p.val) :
    (iblk m c 0 t : S1024x512.Idx → EReal) (ix2 p k) = (args m c).x (ix2 r k) := by
  show (V m c main_arg0 : S16384x512.Idx → EReal) (((cfg0.win 0).blk t).view.emb (ix2 p k)) = _
  rw [V_main_arg0]
  show (m ((c : Thread nD τ).loc main_arg0) : S16384x512.Idx → EReal) _ = (m ((c : Thread nD τ).loc main_arg0) : S16384x512.Idx → EReal) (ix2 r k)
  refine congrArg _ (funext fun a => Fin.ext ?_)
  match a with
  | ⟨0, _⟩ => show win0_0.index t (0 : Fin 2) * 1024 + 1 * p.val = r.val; rw [(idx0 t).1, hr]; omega
  | ⟨1, _⟩ => show win0_0.index t (1 : Fin 2) * 512 + 1 * k.val = k.val; rw [(idx0 t).2]; omega
/-- Row `p` of `h`'s block at point `t` is row `1024·t + p` of `h`. -/
theorem h_block (c : Dev nD) (t : Fin cfg0.N) (p : Fin 1024) (k : Fin 512) (r : Fin 16384) (hr : r.val = t.val * 1024 + p.val) :
    (iblk m c 1 t : S1024x512.Idx → EReal) (ix2 p k) = (args m c).h (ix2 r k) := by
  show (V m c main_arg1 : S16384x512.Idx → EReal) (((cfg0.win 1).blk t).view.emb (ix2 p k)) = _
  rw [V_main_arg1]
  show (m ((c : Thread nD τ).loc main_arg1) : S16384x512.Idx → EReal) _ = (m ((c : Thread nD τ).loc main_arg1) : S16384x512.Idx → EReal) (ix2 r k)
  refine congrArg _ (funext fun a => Fin.ext ?_)
  match a with
  | ⟨0, _⟩ => show win0_1.index t (0 : Fin 2) * 1024 + 1 * p.val = r.val; rw [(idx1 t).1, hr]; omega
  | ⟨1, _⟩ => show win0_1.index t (1 : Fin 2) * 512 + 1 * k.val = k.val; rw [(idx1 t).2]; omega
/-- Row `p` of `c`'s block at point `t` is row `1024·t + p` of `c`. -/
theorem c_block (c : Dev nD) (t : Fin cfg0.N) (p : Fin 1024) (k : Fin 512) (r : Fin 16384) (hr : r.val = t.val * 1024 + p.val) :
    (iblk m c 2 t : S1024x512.Idx → EReal) (ix2 p k) = (args m c).c (ix2 r k) := by
  show (V m c main_arg2 : S16384x512.Idx → EReal) (((cfg0.win 2).blk t).view.emb (ix2 p k)) = _
  rw [V_main_arg2]
  show (m ((c : Thread nD τ).loc main_arg2) : S16384x512.Idx → EReal) _ = (m ((c : Thread nD τ).loc main_arg2) : S16384x512.Idx → EReal) (ix2 r k)
  refine congrArg _ (funext fun a => Fin.ext ?_)
  match a with
  | ⟨0, _⟩ => show win0_2.index t (0 : Fin 2) * 1024 + 1 * p.val = r.val; rw [(idx2 t).1, hr]; omega
  | ⟨1, _⟩ => show win0_2.index t (1 : Fin 2) * 512 + 1 * k.val = k.val; rw [(idx2 t).2]; omega

/-- `wii`'s block at any point is `wii`. -/
theorem wii_block (c : Dev nD) (t : Fin cfg0.N) (k q : Fin 512) :
    (iblk m c 3 t : S512x512.Idx → EReal) (ix2 k q) = (args m c).wii (ix2 k q) := by
  show (V m c main_v0 : S512x512.Idx → EReal) (((cfg0.win 3).blk t).view.emb (ix2 k q)) = _
  rw [V_wii]
  refine congrArg _ (funext fun a => Fin.ext ?_)
  match a with
  | ⟨0, _⟩ => show win0_3.index t (0 : Fin 2) * 512 + 1 * k.val = k.val; rw [(idx3 t).1]; omega
  | ⟨1, _⟩ => show win0_3.index t (1 : Fin 2) * 512 + 1 * q.val = q.val; rw [(idx3 t).2]; omega
/-- `wif`'s block at any point is `wif`. -/
theorem wif_block (c : Dev nD) (t : Fin cfg0.N) (k q : Fin 512) :
    (iblk m c 4 t : S512x512.Idx → EReal) (ix2 k q) = (args m c).wif (ix2 k q) := by
  show (V m c main_v1 : S512x512.Idx → EReal) (((cfg0.win 4).blk t).view.emb (ix2 k q)) = _
  rw [V_wif]
  refine congrArg _ (funext fun a => Fin.ext ?_)
  match a with
  | ⟨0, _⟩ => show win0_4.index t (0 : Fin 2) * 512 + 1 * k.val = k.val; rw [(idx4 t).1]; omega
  | ⟨1, _⟩ => show win0_4.index t (1 : Fin 2) * 512 + 1 * q.val = q.val; rw [(idx4 t).2]; omega
/-- `wig`'s block at any point is `wig`. -/
theorem wig_block (c : Dev nD) (t : Fin cfg0.N) (k q : Fin 512) :
    (iblk m c 5 t : S512x512.Idx → EReal) (ix2 k q) = (args m c).wig (ix2 k q) := by
  show (V m c main_v2 : S512x512.Idx → EReal) (((cfg0.win 5).blk t).view.emb (ix2 k q)) = _
  rw [V_wig]
  refine congrArg _ (funext fun a => Fin.ext ?_)
  match a with
  | ⟨0, _⟩ => show win0_5.index t (0 : Fin 2) * 512 + 1 * k.val = k.val; rw [(idx5 t).1]; omega
  | ⟨1, _⟩ => show win0_5.index t (1 : Fin 2) * 512 + 1 * q.val = q.val; rw [(idx5 t).2]; omega
/-- `wio`'s block at any point is `wio`. -/
theorem wio_block (c : Dev nD) (t : Fin cfg0.N) (k q : Fin 512) :
    (iblk m c 6 t : S512x512.Idx → EReal) (ix2 k q) = (args m c).wio (ix2 k q) := by
  show (V m c main_v3 : S512x512.Idx → EReal) (((cfg0.win 6).blk t).view.emb (ix2 k q)) = _
  rw [V_wio]
  refine congrArg _ (funext fun a => Fin.ext ?_)
  match a with
  | ⟨0, _⟩ => show win0_6.index t (0 : Fin 2) * 512 + 1 * k.val = k.val; rw [(idx6 t).1]; omega
  | ⟨1, _⟩ => show win0_6.index t (1 : Fin 2) * 512 + 1 * q.val = q.val; rw [(idx6 t).2]; omega
/-- `whi`'s block at any point is `whi`. -/
theorem whi_block (c : Dev nD) (t : Fin cfg0.N) (k q : Fin 512) :
    (iblk m c 7 t : S512x512.Idx → EReal) (ix2 k q) = (args m c).whi (ix2 k q) := by
  show (V m c main_v4 : S512x512.Idx → EReal) (((cfg0.win 7).blk t).view.emb (ix2 k q)) = _
  rw [V_whi]
  refine congrArg _ (funext fun a => Fin.ext ?_)
  match a with
  | ⟨0, _⟩ => show win0_7.index t (0 : Fin 2) * 512 + 1 * k.val = k.val; rw [(idx7 t).1]; omega
  | ⟨1, _⟩ => show win0_7.index t (1 : Fin 2) * 512 + 1 * q.val = q.val; rw [(idx7 t).2]; omega
/-- `whf`'s block at any point is `whf`. -/
theorem whf_block (c : Dev nD) (t : Fin cfg0.N) (k q : Fin 512) :
    (iblk m c 8 t : S512x512.Idx → EReal) (ix2 k q) = (args m c).whf (ix2 k q) := by
  show (V m c main_v5 : S512x512.Idx → EReal) (((cfg0.win 8).blk t).view.emb (ix2 k q)) = _
  rw [V_whf]
  refine congrArg _ (funext fun a => Fin.ext ?_)
  match a with
  | ⟨0, _⟩ => show win0_8.index t (0 : Fin 2) * 512 + 1 * k.val = k.val; rw [(idx8 t).1]; omega
  | ⟨1, _⟩ => show win0_8.index t (1 : Fin 2) * 512 + 1 * q.val = q.val; rw [(idx8 t).2]; omega
/-- `whg`'s block at any point is `whg`. -/
theorem whg_block (c : Dev nD) (t : Fin cfg0.N) (k q : Fin 512) :
    (iblk m c 9 t : S512x512.Idx → EReal) (ix2 k q) = (args m c).whg (ix2 k q) := by
  show (V m c main_v6 : S512x512.Idx → EReal) (((cfg0.win 9).blk t).view.emb (ix2 k q)) = _
  rw [V_whg]
  refine congrArg _ (funext fun a => Fin.ext ?_)
  match a with
  | ⟨0, _⟩ => show win0_9.index t (0 : Fin 2) * 512 + 1 * k.val = k.val; rw [(idx9 t).1]; omega
  | ⟨1, _⟩ => show win0_9.index t (1 : Fin 2) * 512 + 1 * q.val = q.val; rw [(idx9 t).2]; omega
/-- `who`'s block at any point is `who`. -/
theorem who_block (c : Dev nD) (t : Fin cfg0.N) (k q : Fin 512) :
    (iblk m c 10 t : S512x512.Idx → EReal) (ix2 k q) = (args m c).who (ix2 k q) := by
  show (V m c main_v7 : S512x512.Idx → EReal) (((cfg0.win 10).blk t).view.emb (ix2 k q)) = _
  rw [V_who]
  refine congrArg _ (funext fun a => Fin.ext ?_)
  match a with
  | ⟨0, _⟩ => show win0_10.index t (0 : Fin 2) * 512 + 1 * k.val = k.val; rw [(idx10 t).1]; omega
  | ⟨1, _⟩ => show win0_10.index t (1 : Fin 2) * 512 + 1 * q.val = q.val; rw [(idx10 t).2]; omega

/-- The bias row's block at any point, at column `q`: `bxi[q] + bhi[q]`. -/
theorem bxi_block (c : Dev nD) (t : Fin cfg0.N) (q : Fin 512) :
    (iblk m c 11 t : S1x512.Idx → EReal) (ix2 (0 : Fin 1) q) = (args m c).bxi (ix1 q) + (args m c).bhi (ix1 q) := by
  show (V m c main_v9 : S1x512.Idx → EReal) (((cfg0.win 11).blk t).view.emb (ix2 (0 : Fin 1) q)) = _
  have e : ((cfg0.win 11).blk t).view.emb (ix2 (0 : Fin 1) q) = ix2 (0 : Fin 1) q := funext fun a => Fin.ext (by
    match a with
    | ⟨0, _⟩ => show win0_11.index t (0 : Fin 2) * 1 + 1 * 0 = 0; rw [(idx11 t).1]
    | ⟨1, _⟩ => show win0_11.index t (1 : Fin 2) * 512 + 1 * q.val = q.val; rw [(idx11 t).2]; omega)
  rw [e]
  exact V_bxi_at m c q
/-- The bias row's block at any point, at column `q`: `bxf[q] + bhf[q]`. -/
theorem bxf_block (c : Dev nD) (t : Fin cfg0.N) (q : Fin 512) :
    (iblk m c 12 t : S1x512.Idx → EReal) (ix2 (0 : Fin 1) q) = (args m c).bxf (ix1 q) + (args m c).bhf (ix1 q) := by
  show (V m c main_v11 : S1x512.Idx → EReal) (((cfg0.win 12).blk t).view.emb (ix2 (0 : Fin 1) q)) = _
  have e : ((cfg0.win 12).blk t).view.emb (ix2 (0 : Fin 1) q) = ix2 (0 : Fin 1) q := funext fun a => Fin.ext (by
    match a with
    | ⟨0, _⟩ => show win0_12.index t (0 : Fin 2) * 1 + 1 * 0 = 0; rw [(idx12 t).1]
    | ⟨1, _⟩ => show win0_12.index t (1 : Fin 2) * 512 + 1 * q.val = q.val; rw [(idx12 t).2]; omega)
  rw [e]
  exact V_bxf_at m c q
/-- The bias row's block at any point, at column `q`: `bxg[q] + bhg[q]`. -/
theorem bxg_block (c : Dev nD) (t : Fin cfg0.N) (q : Fin 512) :
    (iblk m c 13 t : S1x512.Idx → EReal) (ix2 (0 : Fin 1) q) = (args m c).bxg (ix1 q) + (args m c).bhg (ix1 q) := by
  show (V m c main_v13 : S1x512.Idx → EReal) (((cfg0.win 13).blk t).view.emb (ix2 (0 : Fin 1) q)) = _
  have e : ((cfg0.win 13).blk t).view.emb (ix2 (0 : Fin 1) q) = ix2 (0 : Fin 1) q := funext fun a => Fin.ext (by
    match a with
    | ⟨0, _⟩ => show win0_13.index t (0 : Fin 2) * 1 + 1 * 0 = 0; rw [(idx13 t).1]
    | ⟨1, _⟩ => show win0_13.index t (1 : Fin 2) * 512 + 1 * q.val = q.val; rw [(idx13 t).2]; omega)
  rw [e]
  exact V_bxg_at m c q
/-- The bias row's block at any point, at column `q`: `bxo[q] + bho[q]`. -/
theorem bxo_block (c : Dev nD) (t : Fin cfg0.N) (q : Fin 512) :
    (iblk m c 14 t : S1x512.Idx → EReal) (ix2 (0 : Fin 1) q) = (args m c).bxo (ix1 q) + (args m c).bho (ix1 q) := by
  show (V m c main_v15 : S1x512.Idx → EReal) (((cfg0.win 14).blk t).view.emb (ix2 (0 : Fin 1) q)) = _
  have e : ((cfg0.win 14).blk t).view.emb (ix2 (0 : Fin 1) q) = ix2 (0 : Fin 1) q := funext fun a => Fin.ext (by
    match a with
    | ⟨0, _⟩ => show win0_14.index t (0 : Fin 2) * 1 + 1 * 0 = 0; rw [(idx14 t).1]
    | ⟨1, _⟩ => show win0_14.index t (1 : Fin 2) * 512 + 1 * q.val = q.val; rw [(idx14 t).2]; omega)
  rw [e]
  exact V_bxo_at m c q

/-! ## A gate's pre-activation inside block `t` is the specification's -/

/-- With the gate's weight blocks the gate's matrices and its bias row the sum of its two biases, the pre-activation
    at (p, q) of block `t` is the specification's at row `1024·t + p`. -/
theorem blockPre_eq (c : Dev nD) (t : Fin cfg0.N) (p : Fin 1024) (q : Fin 512) (r : Fin 16384) (hr : r.val = t.val * 1024 + p.val)
    (wi wh : FVec Ideal S512x512 .bf16) (b : FVec Ideal S1x512 .f32) (Wi Wh : SW.Idx → EReal) (bi bh : SV.Idx → EReal)
    (hwi : ∀ k : Fin 512, wi (ix2 k q) = Wi (ix2 k q)) (hwh : ∀ k : Fin 512, wh (ix2 k q) = Wh (ix2 k q))
    (hb : b (ix2 (0 : Fin 1) q) = bi (ix1 q) + bh (ix1 q)) :
    Body.blockPre (iblk m c 0 t) (iblk m c 1 t) wi wh b p q = pre (args m c).x (args m c).h Wi Wh bi bh r q := by
  unfold Body.blockPre pre
  exact congrArg₂ (· + ·)
    (congrArg₂ (· + ·)
      (Finset.sum_congr rfl fun k _ => congrArg₂ (· * ·) (x_block m c t p k r hr) (hwi k))
      (Finset.sum_congr rfl fun k _ => congrArg₂ (· * ·) (h_block m c t p k r hr) (hwh k)))
    hb

end Cert.Lstm.Kernel

end
-- ==== Proof.KernelValue.lean ====
/-
  What each grid point writes back, and the two result arrays after the run.

  Point `t` writes back, to the cell-state result, `σ(pre_f)·c + σ(pre_i)·tanh(pre_g)` of its blocks and, to the
  hidden-state result, `σ(pre_o)·tanh` of that; with each block read as rows `1024·t …` of the arguments these are
  block `t` of the specification's new cell state and new hidden state. The sixteen blocks cover both arrays (row `r`
  is in block `r / 1024`), so after the run the two result arrays are the specification's, and the arguments are
  unchanged.
-/
import proofs.«100056_j56435870269511_2_alg».proof.Proof.KernelBlocks

noncomputable section

namespace Cert.Lstm.Kernel

open Cert.KernelIdeal Cert.KernelIdeal.Gen Idealize.ShloMosaic Idealize.ShloMosaic.TcCoe Idealize.SL.Sem
open Idealize.ShloMosaic.ValueIdx Cert.Lstm
open Idealize.ShloMosaic.Pipeline (Dat)

variable (m : (ℓ : Loc nD τ sig) → Buf (Elt Ideal) ℓ) (ρ : Dev nD → PrngReg)

/-! ## What point `t` writes back -/

/-- To the cell-state result: block `t` of the new cell state. -/
theorem flushedC_eq (c : Dev nD) (t : Fin cfg0.N) :
    (dats m 0 c).flushed 16 t = ((cfg0.win 16).blk t).view.read (Elt Ideal) (newC (args m c)) := by
  rw [Cert.KernelIdeal.Value.flushed16]
  unfold out0_16
  rw [View.canon_unit_zero hz]
  simp only [View.ld_unit_zero (S := S1024x512) hz, View.ld_unit_zero (S := S512x512) hz, View.ld_unit_zero (S := S1x512) hz]
  refine ext_block _ _ fun p q => ?_
  show k0_pay1 (F := Ideal) (k0_pay4 (iblk m c 1 t)) (k0_pay5 (iblk m c 0 t) (iblk m c 1 t) (iblk m c 4 t) (iblk m c 8 t) (iblk m c 12 t) (iblk m c 2 t))
      (k0_pay6 (iblk m c 0 t) (iblk m c 1 t) (iblk m c 3 t) (iblk m c 7 t) (iblk m c 11 t)) (k0_pay7 (iblk m c 0 t) (iblk m c 5 t)) (iblk m c 9 t) (iblk m c 13 t) (ix2 p q)
    = newC (args m c) (((cfg0.win 16).blk t).view.emb (ix2 p q))
  refine (Body.cell_at (iblk m c 0 t) (iblk m c 1 t) (iblk m c 2 t) (iblk m c 3 t) (iblk m c 4 t) (iblk m c 5 t) (iblk m c 7 t) (iblk m c 8 t) (iblk m c 9 t) (iblk m c 11 t) (iblk m c 12 t) (iblk m c 13 t) p q).trans ?_
  have ht : t.val < 16 := by have := t.isLt; have hN : cfg0.N = 16 := N_0; omega
  let r : Fin 16384 := ⟨t.val * 1024 + p.val, by have := p.isLt; omega⟩
  have e : ((cfg0.win 16).blk t).view.emb (ix2 p q) = ix2 r q := funext fun a => Fin.ext (by
    match a with
    | ⟨0, _⟩ => show win0_16.index t (0 : Fin 2) * 1024 + 1 * p.val = t.val * 1024 + p.val; rw [(idx16 t).1]; omega
    | ⟨1, _⟩ => show win0_16.index t (1 : Fin 2) * 512 + 1 * q.val = q.val; rw [(idx16 t).2]; omega)
  rw [e]
  exact (congrArg₂ (· + ·)
      (congrArg₂ (· * ·) (congrArg Ideal.logistic (blockPre_eq m c t p q r rfl (iblk m c 4 t) (iblk m c 8 t) (iblk m c 12 t) (args m c).wif (args m c).whf (args m c).bxf (args m c).bhf
        (fun k => wif_block m c t k q) (fun k => whf_block m c t k q) (bxf_block m c t q))) (c_block m c t p q r rfl))
      (congrArg₂ (· * ·) (congrArg Ideal.logistic (blockPre_eq m c t p q r rfl (iblk m c 3 t) (iblk m c 7 t) (iblk m c 11 t) (args m c).wii (args m c).whi (args m c).bxi (args m c).bhi
        (fun k => wii_block m c t k q) (fun k => whi_block m c t k q) (bxi_block m c t q))) (congrArg Ideal.tanh (blockPre_eq m c t p q r rfl (iblk m c 5 t) (iblk m c 9 t) (iblk m c 13 t) (args m c).wig (args m c).whg (args m c).bxg (args m c).bhg
        (fun k => wig_block m c t k q) (fun k => whg_block m c t k q) (bxg_block m c t q)))))

/-- To the hidden-state result: block `t` of the new hidden state. -/
theorem flushedH_eq (c : Dev nD) (t : Fin cfg0.N) :
    (dats m 0 c).flushed 15 t = ((cfg0.win 15).blk t).view.read (Elt Ideal) (newH (args m c)) := by
  rw [Cert.KernelIdeal.Value.flushed15]
  unfold out0_15
  rw [View.canon_unit_zero hz]
  simp only [View.ld_unit_zero (S := S1024x512) hz, View.ld_unit_zero (S := S512x512) hz, View.ld_unit_zero (S := S1x512) hz]
  refine ext_block _ _ fun p q => ?_
  show k0_pay2 (F := Ideal) (k0_pay3 (iblk m c 0 t)) (k0_pay4 (iblk m c 1 t)) (k0_pay5 (iblk m c 0 t) (iblk m c 1 t) (iblk m c 4 t) (iblk m c 8 t) (iblk m c 12 t) (iblk m c 2 t))
      (k0_pay6 (iblk m c 0 t) (iblk m c 1 t) (iblk m c 3 t) (iblk m c 7 t) (iblk m c 11 t)) (k0_pay7 (iblk m c 0 t) (iblk m c 5 t)) (iblk m c 9 t) (iblk m c 13 t) (iblk m c 6 t) (iblk m c 10 t) (iblk m c 14 t) (ix2 p q)
    = newH (args m c) (((cfg0.win 15).blk t).view.emb (ix2 p q))
  refine (Body.hidden_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  have ht : t.val < 16 := by have := t.isLt; have hN : cfg0.N = 16 := N_0; omega
  let r : Fin 16384 := ⟨t.val * 1024 + p.val, by have := p.isLt; omega⟩
  have e : ((cfg0.win 15).blk t).view.emb (ix2 p q) = ix2 r q := funext fun a => Fin.ext (by
    match a with
    | ⟨0, _⟩ => show win0_15.index t (0 : Fin 2) * 1024 + 1 * p.val = t.val * 1024 + p.val; rw [(idx15 t).1]; omega
    | ⟨1, _⟩ => show win0_15.index t (1 : Fin 2) * 512 + 1 * q.val = q.val; rw [(idx15 t).2]; omega)
  rw [e]
  exact congrArg₂ (· * ·) (congrArg Ideal.logistic (blockPre_eq m c t p q r rfl (iblk m c 6 t) (iblk m c 10 t) (iblk m c 14 t) (args m c).wio (args m c).who (args m c).bxo (args m c).bho
        (fun k => wio_block m c t k q) (fun k => who_block m c t k q) (bxo_block m c t q)))
    (congrArg Ideal.tanh (congrArg₂ (· + ·)
      (congrArg₂ (· * ·) (congrArg Ideal.logistic (blockPre_eq m c t p q r rfl (iblk m c 4 t) (iblk m c 8 t) (iblk m c 12 t) (args m c).wif (args m c).whf (args m c).bxf (args m c).bhf
        (fun k => wif_block m c t k q) (fun k => whf_block m c t k q) (bxf_block m c t q))) (c_block m c t p q r rfl))
      (congrArg₂ (· * ·) (congrArg Ideal.logistic (blockPre_eq m c t p q r rfl (iblk m c 3 t) (iblk m c 7 t) (iblk m c 11 t) (args m c).wii (args m c).whi (args m c).bxi (args m c).bhi
        (fun k => wii_block m c t k q) (fun k => whi_block m c t k q) (bxi_block m c t q))) (congrArg Ideal.tanh (blockPre_eq m c t p q r rfl (iblk m c 5 t) (iblk m c 9 t) (iblk m c 13 t) (args m c).wig (args m c).whg (args m c).bxg (args m c).bhg
        (fun k => wig_block m c t k q) (fun k => whg_block m c t k q) (bxg_block m c t q))))))

/-! ## The blocks cover the arrays -/

/-- An index of the array is in point `t`'s block iff each coordinate is in the block's range on its axis. -/
theorem mem_blkC (t : Fin cfg0.N) (i : S16384x512.Idx) :
    i ∈ ((cfg0.win 16).blk t).view.set ↔ ∀ a : Fin 2, win0_16.index t a * S1024x512.size a ≤ (i a).val ∧ (i a).val < win0_16.index t a * S1024x512.size a + S1024x512.size a := by
  show i ∈ ((View.whole main_v16_1).slice (win0_16.rect t)).set ↔ _
  rw [View.set_slice_whole, Rect.mem_set_unit]
  exact Iff.rfl

/-- Row `r` lies in block `r / 1024`: the sixteen blocks cover the array. -/
theorem coverC (i : S16384x512.Idx) : ∃ t : Fin cfg0.N, (cfg0.win 16).flush t = true ∧ i ∈ ((cfg0.win 16).blk t).view.set := by
  have hN : cfg0.N = 16 := N_0
  have h0 : (i 0).val < 16384 := (i 0).isLt
  have h1 : (i 1).val < 512 := (i 1).isLt
  refine ⟨⟨(i 0).val / 1024, by rw [hN]; omega⟩, flush0_16 _, ?_⟩
  rw [mem_blkC]
  intro a
  match a with
  | ⟨0, _⟩ =>
    show win0_16.index _ (0 : Fin 2) * 1024 ≤ (i 0).val ∧ (i 0).val < win0_16.index _ (0 : Fin 2) * 1024 + 1024
    rw [(idx16 _).1]
    show (i 0).val / 1024 * 1024 ≤ (i 0).val ∧ (i 0).val < (i 0).val / 1024 * 1024 + 1024
    omega
  | ⟨1, _⟩ =>
    show win0_16.index _ (1 : Fin 2) * 512 ≤ (i 1).val ∧ (i 1).val < win0_16.index _ (1 : Fin 2) * 512 + 512
    rw [(idx16 _).2]
    omega

/-- An index of the array is in point `t`'s block iff each coordinate is in the block's range on its axis. -/
theorem mem_blkH (t : Fin cfg0.N) (i : S16384x512.Idx) :
    i ∈ ((cfg0.win 15).blk t).view.set ↔ ∀ a : Fin 2, win0_15.index t a * S1024x512.size a ≤ (i a).val ∧ (i a).val < win0_15.index t a * S1024x512.size a + S1024x512.size a := by
  show i ∈ ((View.whole main_v16_0).slice (win0_15.rect t)).set ↔ _
  rw [View.set_slice_whole, Rect.mem_set_unit]
  exact Iff.rfl

/-- Row `r` lies in block `r / 1024`: the sixteen blocks cover the array. -/
theorem coverH (i : S16384x512.Idx) : ∃ t : Fin cfg0.N, (cfg0.win 15).flush t = true ∧ i ∈ ((cfg0.win 15).blk t).view.set := by
  have hN : cfg0.N = 16 := N_0
  have h0 : (i 0).val < 16384 := (i 0).isLt
  have h1 : (i 1).val < 512 := (i 1).isLt
  refine ⟨⟨(i 0).val / 1024, by rw [hN]; omega⟩, flush0_15 _, ?_⟩
  rw [mem_blkH]
  intro a
  match a with
  | ⟨0, _⟩ =>
    show win0_15.index _ (0 : Fin 2) * 1024 ≤ (i 0).val ∧ (i 0).val < win0_15.index _ (0 : Fin 2) * 1024 + 1024
    rw [(idx15 _).1]
    show (i 0).val / 1024 * 1024 ≤ (i 0).val ∧ (i 0).val < (i 0).val / 1024 * 1024 + 1024
    omega
  | ⟨1, _⟩ =>
    show win0_15.index _ (1 : Fin 2) * 512 ≤ (i 1).val ∧ (i 1).val < win0_15.index _ (1 : Fin 2) * 512 + 512
    rw [(idx15 _).2]
    omega

/-! ## The arrays after the run -/

/-- The cell-state result ends holding the new cell state. -/
theorem finalC (c : Dev nD) : (dats m 0 c).arrAt 16 cfg0.N = newC (args m c) :=
  (dats m 0 c).arrAt_eq_of_cover 16 (newC (args m c)) (fun t _ => flushedC_eq m c t) coverC

/-- The hidden-state result ends holding the new hidden state. -/
theorem finalH (c : Dev nD) : (dats m 0 c).arrAt 15 cfg0.N = newH (args m c) :=
  (dats m 0 c).arrAt_eq_of_cover 15 (newH (args m c)) (fun t _ => flushedH_eq m c t) coverH

/-- The kernel's run, read: every weakly fair execution ends with the first result the new hidden state, the second
    the new cell state, and the nineteen arguments as launched. -/
theorem run : θ_run defs (onTc (τ := τ) (main (F := Ideal))) ⟨m, fun _ => 0, ρ⟩ fun r => ∀ c : Dev nD,
      r.2.mem ((c : Thread nD τ).loc main_v16_0) = newH (args m c)
      ∧ r.2.mem ((c : Thread nD τ).loc main_v16_1) = newC (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (finalH m c), (h c).2.1.trans (finalC m c), (h c).2.2⟩)
    (Cert.KernelIdeal.Value.run_blocks m ρ)

end Cert.Lstm.Kernel

end
-- ==== Proof.LibConcatFour.lean ====
/-
  A concatenation of FOUR pieces of one shape along an axis, read at an index.

  Along the joined axis the four pieces lie end to end, each of extent `K` (the pieces' size on that axis): the entry
  at an index whose joined-axis coordinate is `g·K + q` with `q < K` is piece `g`'s entry at the index with the same
  coordinates off that axis and `q` on it. (`jnp.concatenate([w₀, w₁, w₂, w₃], axis)` of four gate matrices or four
  bias vectors, and `jnp.split(·, 4, axis)` back: column `g·K + q` of the joined array is column `q` of piece `g`.)
-/
import Idealize.ShloMosaic.Lib.Pipeline.Value

noncomputable section

namespace Idealize.ShloMosaic

variable {α : Type}

/-- Four pieces `x₀ … x₃` of one shape `s` joined along axis `a` into `t`, read at `j`: when `j`'s coordinate on `a`
    is `g · (s's extent on a) + (i's coordinate on a)` and `i`, `j` agree on every other axis, the entry is piece `g`'s
    at `i`. -/
theorem concatenate_four_apply {t s : Shape} (a : Fin t.rank) (x0 x1 x2 x3 : s.Idx → α)
    (h : Shape.Concatenates (([⟨s, x0⟩, ⟨s, x1⟩, ⟨s, x2⟩, ⟨s, x3⟩] : List ((s : Shape) × (s.Idx → α))).map (·.1)) t a)
    (hr : s.rank = t.rank) (j : t.Idx) (g : Fin 4) (i : s.Idx)
    (hi : ∀ b : Fin s.rank, b.cast hr ≠ a → (i b).val = (j (b.cast hr)).val)
    (ha : g.val * s.size (a.cast hr.symm) + (i (a.cast hr.symm)).val = (j a).val) :
    concatenate t a [⟨s, x0⟩, ⟨s, x1⟩, ⟨s, x2⟩, ⟨s, x3⟩] h j = (![x0, x1, x2, x3] g) i := by
  match g, ha with
  | ⟨0, _⟩, ha =>
    exact concatenate_apply_piece a _ h j 0 (by simp) s x0 rfl hr 0 (by simp) i hi (by simpa using ha)
  | ⟨1, _⟩, ha =>
    exact concatenate_apply_piece a _ h j 1 (by simp) s x1 rfl hr (s.size (a.cast hr.symm)) (by simp [dif_pos hr]) i hi
      (by simpa using ha)
  | ⟨2, _⟩, ha =>
    exact concatenate_apply_piece a _ h j 2 (by simp) s x2 rfl hr (2 * s.size (a.cast hr.symm))
      (by simp [dif_pos hr]; omega) i hi (by simpa using ha)
  | ⟨3, _⟩, ha =>
    exact concatenate_apply_piece a _ h j 3 (by simp) s x3 rfl hr (3 * s.size (a.cast hr.symm))
      (by simp [dif_pos hr]; omega) i hi (by simpa using ha)

end Idealize.ShloMosaic

end
-- ==== Proof.RefPre.lean ====
/-
  The reference's joined pre-activation, read one gate at a time.

  The reference joins the four gates' input weights side by side into one 512×2048 matrix, likewise the hidden weights,
  and the four input biases and the four hidden biases end to end into two vectors of 2048; it takes the two big
  products, adds them, and adds the two bias vectors one after the other. Column `512·g + j` of a joined matrix is
  column `j` of gate `g`'s matrix, and entry `512·g + j` of a joined bias vector is entry `j` of gate `g`'s; so the
  joined pre-activation at row `r`, column `512·g + j` is gate `g`'s own pre-activation at (r, j) — with the two biases
  added in two steps, which is adding their sum.
-/
import proofs.«100056_j56435870269511_2_alg».proof.Proof.Gen.ReferenceIdeal.Read
import proofs.«100056_j56435870269511_2_alg».proof.Proof.LstmSpec
import proofs.«100056_j56435870269511_2_alg».proof.Proof.LibConcatFour

noncomputable section

namespace Cert.Lstm.Ref

open Cert.ReferenceIdeal Cert.ReferenceIdeal.Read Idealize.ShloMosaic Idealize.ShloMosaic.ValueIdx Cert.Lstm

/-- The joined input weights at row `k`, column `512·g + j`: gate `g`'s at (k, j). -/
theorem wi_joined (w0 w1 w2 w3 : (⟨S512x512, .f32⟩ : BufTy).Contents (Elt Ideal)) (g : Fin 4) (k j : Fin 512) (i : S512x2048.Idx)
    (h0 : (i 0).val = k.val) (h1 : (i 1).val = g.val * 512 + j.val) :
    val_main_v0 (F := Ideal) w0 w1 w2 w3 i = (![w0, w1, w2, w3] g) (ix2 k j) := by
  unfold val_main_v0
  refine concatenate_four_apply (t := S512x2048) (s := S512x512) (1 : Fin 2) w0 w1 w2 w3 _ rfl i g (ix2 k j) (fun b hb => ?_) ?_
  · match b, hb with
    | ⟨0, _⟩, _ => exact h0.symm
    | ⟨1, _⟩, hb => exact absurd rfl hb
  · exact h1.symm

/-- The joined hidden weights at row `k`, column `512·g + j`: gate `g`'s at (k, j). -/
theorem wh_joined (w0 w1 w2 w3 : (⟨S512x512, .f32⟩ : BufTy).Contents (Elt Ideal)) (g : Fin 4) (k j : Fin 512) (i : S512x2048.Idx)
    (h0 : (i 0).val = k.val) (h1 : (i 1).val = g.val * 512 + j.val) :
    val_main_v1 (F := Ideal) w0 w1 w2 w3 i = (![w0, w1, w2, w3] g) (ix2 k j) := by
  unfold val_main_v1
  refine concatenate_four_apply (t := S512x2048) (s := S512x512) (1 : Fin 2) w0 w1 w2 w3 _ rfl i g (ix2 k j) (fun b hb => ?_) ?_
  · match b, hb with
    | ⟨0, _⟩, _ => exact h0.symm
    | ⟨1, _⟩, hb => exact absurd rfl hb
  · exact h1.symm

/-- The joined input biases at `512·g + j`: gate `g`'s at `j`. -/
theorem bi_joined (b0 b1 b2 b3 : (⟨S512, .f32⟩ : BufTy).Contents (Elt Ideal)) (g : Fin 4) (j : Fin 512) (i : S2048.Idx)
    (h1 : (i 0).val = g.val * 512 + j.val) :
    val_main_v2 (F := Ideal) b0 b1 b2 b3 i = (![b0, b1, b2, b3] g) (ix1 j) := by
  unfold val_main_v2
  refine concatenate_four_apply (t := S2048) (s := S512) (0 : Fin 1) b0 b1 b2 b3 _ rfl i g (ix1 j) (fun b hb => ?_) ?_
  · match b, hb with
    | ⟨0, _⟩, hb => exact absurd rfl hb
  · exact h1.symm

/-- The joined hidden biases at `512·g + j`: gate `g`'s at `j`. -/
theorem bh_joined (b0 b1 b2 b3 : (⟨S512, .f32⟩ : BufTy).Contents (Elt Ideal)) (g : Fin 4) (j : Fin 512) (i : S2048.Idx)
    (h1 : (i 0).val = g.val * 512 + j.val) :
    val_main_v3 (F := Ideal) b0 b1 b2 b3 i = (![b0, b1, b2, b3] g) (ix1 j) := by
  unfold val_main_v3
  refine concatenate_four_apply (t := S2048) (s := S512) (0 : Fin 1) b0 b1 b2 b3 _ rfl i g (ix1 j) (fun b hb => ?_) ?_
  · match b, hb with
    | ⟨0, _⟩, hb => exact absurd rfl hb
  · exact h1.symm

/-- The joined pre-activation at row `r`, column `512·g + j` is gate `g`'s pre-activation at (r, j). -/
theorem pre_joined (x0 x1 : (⟨S16384x512, .f32⟩ : BufTy).Contents (Elt Ideal)) (x3 x4 x5 x6 x7 x8 x9 x10 : (⟨S512x512, .f32⟩ : BufTy).Contents (Elt Ideal))
    (x11 x12 x13 x14 x15 x16 x17 x18 : (⟨S512, .f32⟩ : BufTy).Contents (Elt Ideal))
    (g : Fin 4) (r : Fin 16384) (j : Fin 512) (i : S16384x2048.Idx)
    (h0 : (i 0).val = r.val) (h1 : (i 1).val = g.val * 512 + j.val) :
    val_main_v12 (F := Ideal) x0 x1 x3 x4 x5 x6 x7 x8 x9 x10 x11 x12 x13 x14 x15 x16 x17 x18 i
      = pre x0 x1 (![x3, x4, x5, x6] g) (![x7, x8, x9, x10] g) (![x11, x12, x13, x14] g) (![x15, x16, x17, x18] g) r j := by
  rw [val_main_v12_apply, val_main_v9_apply, val_main_v6_apply, val_main_v4_apply, val_main_v5_apply,
    val_main_v8_apply, val_main_v7_apply, val_main_v11_apply, val_main_v10_apply, ← pre_two_steps]
  have el4 : ∀ k : Fin 512, lidx_main_v4 i k = ix2 r k := fun k => funext fun a => Fin.ext (by
    match a with
    | ⟨0, _⟩ => exact h0
    | ⟨1, _⟩ => rfl)
  have el5 : ∀ k : Fin 512, lidx_main_v5 i k = ix2 r k := fun k => funext fun a => Fin.ext (by
    match a with
    | ⟨0, _⟩ => exact h0
    | ⟨1, _⟩ => rfl)
  have e4 : (∑ k : Fin 512, x0 (lidx_main_v4 i k) * val_main_v0 (F := Ideal) x3 x4 x5 x6 (ridx_main_v4 i k))
      = ∑ k : Fin 512, x0 (ix2 r k) * (![x3, x4, x5, x6] g) (ix2 k j) :=
    Finset.sum_congr rfl fun k _ => by rw [el4 k, wi_joined x3 x4 x5 x6 g k j (ridx_main_v4 i k) rfl h1]
  have e5 : (∑ k : Fin 512, x1 (lidx_main_v5 i k) * val_main_v1 (F := Ideal) x7 x8 x9 x10 (ridx_main_v5 i k))
      = ∑ k : Fin 512, x1 (ix2 r k) * (![x7, x8, x9, x10] g) (ix2 k j) :=
    Finset.sum_congr rfl fun k _ => by rw [el5 k, wh_joined x7 x8 x9 x10 g k j (ridx_main_v5 i k) rfl h1]
  rw [e4, e5, bi_joined x11 x12 x13 x14 g j (idx_main_v7 (idx_main_v8 i)) h1,
    bh_joined x15 x16 x17 x18 g j (idx_main_v10 (idx_main_v11 i)) h1]
  rfl

end Cert.Lstm.Ref

end
-- ==== Proof.RefIsSpec.lean ====
/-
  The reference computes the LSTM step.

  After the joined pre-activation the reference splits the 2048 columns back into the four gates' 512 (columns
  0–511 the input gate, 512–1023 the forget gate, 1024–1535 the candidate, 1536–2047 the output gate), applies the
  logistic function spelt as `1 / (1 + e^(-z))` to three of them and tanh to the candidate, and forms
  `c' = f·c + i·g`, `h' = o·tanh(c')`. With the joined pre-activation read one gate at a time, each entry of its two
  results is the specification's.
-/
import proofs.«100056_j56435870269511_2_alg».proof.Proof.RefPre

noncomputable section

namespace Cert.Lstm.Ref

open Cert.ReferenceIdeal Cert.ReferenceIdeal.Read Idealize.ShloMosaic Idealize.ShloMosaic.ValueIdx Cert.Lstm

/-- The reference's new cell state at (r, j). -/
theorem ref_cell_at (x0 x1 x2 : (⟨S16384x512, .f32⟩ : BufTy).Contents (Elt Ideal)) (x3 x4 x5 x6 x7 x8 x9 x10 : (⟨S512x512, .f32⟩ : BufTy).Contents (Elt Ideal))
    (x11 x12 x13 x14 x15 x16 x17 x18 : (⟨S512, .f32⟩ : BufTy).Contents (Elt Ideal)) (r : Fin 16384) (j : Fin 512) :
    val_main_v38 (F := Ideal) x0 x1 x2 x3 x4 x5 x6 x7 x8 x9 x10 x11 x12 x13 x14 x15 x16 x17 x18 (ix2 r j) = cellC ⟨x0, x1, x2, x3, x4, x5, x6, x7, x8, x9, x10, x11, x12, x13, x14, x15, x16, x17, x18⟩ r j := by
  rw [val_main_v38_apply, val_main_v36_apply, val_main_v37_apply,
    val_main_v28_apply, val_main_v27_apply, val_main_cst_2_apply, val_main_v26_apply, val_main_v25_apply,
    val_main_cst_1_apply, val_main_v24_apply, val_main_v23_apply, val_main_v14_apply,
    val_main_v22_apply, val_main_v21_apply, val_main_cst_0_apply, val_main_v20_apply, val_main_v19_apply,
    val_main_cst_apply, val_main_v18_apply, val_main_v17_apply, val_main_v13_apply,
    val_main_v29_apply, val_main_v15_apply]
  rw [pre_joined x0 x1 x3 x4 x5 x6 x7 x8 x9 x10 x11 x12 x13 x14 x15 x16 x17 x18 ⟨1, by decide⟩ r j (idx_main_v14 (ix2 r j)) rfl
      (by show 512 + j.val = 1 * 512 + j.val; omega),
    pre_joined x0 x1 x3 x4 x5 x6 x7 x8 x9 x10 x11 x12 x13 x14 x15 x16 x17 x18 ⟨0, by decide⟩ r j (idx_main_v13 (ix2 r j)) rfl
      (by show j.val = 0 * 512 + j.val; omega),
    pre_joined x0 x1 x3 x4 x5 x6 x7 x8 x9 x10 x11 x12 x13 x14 x15 x16 x17 x18 ⟨2, by decide⟩ r j (idx_main_v15 (ix2 r j)) rfl
      (by show 1024 + j.val = 2 * 512 + j.val; omega)]
  simp only [Ideal.hostDivf_def, Ideal.addf_def, Ideal.mulf_def, Ideal.hostUnary_exp_def, Ideal.hostNegf_def,
    Ideal.negf_def, Ideal.hostUnary_tanh_def, Ideal.ofBits_def, logistic_as_quotient]
  rfl

/-- The reference's new hidden state at (r, j). -/
theorem ref_hidden_at (x0 x1 x2 : (⟨S16384x512, .f32⟩ : BufTy).Contents (Elt Ideal)) (x3 x4 x5 x6 x7 x8 x9 x10 : (⟨S512x512, .f32⟩ : BufTy).Contents (Elt Ideal))
    (x11 x12 x13 x14 x15 x16 x17 x18 : (⟨S512, .f32⟩ : BufTy).Contents (Elt Ideal)) (r : Fin 16384) (j : Fin 512) :
    val_main_v40 (F := Ideal) x0 x1 x2 x3 x4 x5 x6 x7 x8 x9 x10 x11 x12 x13 x14 x15 x16 x17 x18 (ix2 r j) = cellH ⟨x0, x1, x2, x3, x4, x5, x6, x7, x8, x9, x10, x11, x12, x13, x14, x15, x16, x17, x18⟩ r j := by
  rw [val_main_v40_apply, val_main_v39_apply, ref_cell_at,
    val_main_v35_apply, val_main_v34_apply, val_main_cst_4_apply, val_main_v33_apply, val_main_v32_apply,
    val_main_cst_3_apply, val_main_v31_apply, val_main_v30_apply, val_main_v16_apply]
  rw [pre_joined x0 x1 x3 x4 x5 x6 x7 x8 x9 x10 x11 x12 x13 x14 x15 x16 x17 x18 ⟨3, by decide⟩ r j (idx_main_v16 (ix2 r j)) rfl
      (by show 1536 + j.val = 3 * 512 + j.val; omega)]
  simp only [Ideal.hostDivf_def, Ideal.addf_def, Ideal.mulf_def, Ideal.hostUnary_exp_def, Ideal.hostNegf_def,
    Ideal.negf_def, Ideal.hostUnary_tanh_def, Ideal.ofBits_def, logistic_as_quotient]
  rfl

/-- The reference's second result is the new cell state. -/
theorem ref_cell (x0 x1 x2 : (⟨S16384x512, .f32⟩ : BufTy).Contents (Elt Ideal)) (x3 x4 x5 x6 x7 x8 x9 x10 : (⟨S512x512, .f32⟩ : BufTy).Contents (Elt Ideal))
    (x11 x12 x13 x14 x15 x16 x17 x18 : (⟨S512, .f32⟩ : BufTy).Contents (Elt Ideal)) :
    val_main_v38 (F := Ideal) x0 x1 x2 x3 x4 x5 x6 x7 x8 x9 x10 x11 x12 x13 x14 x15 x16 x17 x18 = newC ⟨x0, x1, x2, x3, x4, x5, x6, x7, x8, x9, x10, x11, x12, x13, x14, x15, x16, x17, x18⟩ := by
  funext i
  rw [eq_ix2 i]
  exact ref_cell_at x0 x1 x2 x3 x4 x5 x6 x7 x8 x9 x10 x11 x12 x13 x14 x15 x16 x17 x18 (i 0) (i 1)

/-- The reference's first result is the new hidden state. -/
theorem ref_hidden (x0 x1 x2 : (⟨S16384x512, .f32⟩ : BufTy).Contents (Elt Ideal)) (x3 x4 x5 x6 x7 x8 x9 x10 : (⟨S512x512, .f32⟩ : BufTy).Contents (Elt Ideal))
    (x11 x12 x13 x14 x15 x16 x17 x18 : (⟨S512, .f32⟩ : BufTy).Contents (Elt Ideal)) :
    val_main_v40 (F := Ideal) x0 x1 x2 x3 x4 x5 x6 x7 x8 x9 x10 x11 x12 x13 x14 x15 x16 x17 x18 = newH ⟨x0, x1, x2, x3, x4, x5, x6, x7, x8, x9, x10, x11, x12, x13, x14, x15, x16, x17, x18⟩ := by
  funext i
  rw [eq_ix2 i]
  exact ref_hidden_at x0 x1 x2 x3 x4 x5 x6 x7 x8 x9 x10 x11 x12 x13 x14 x15 x16 x17 x18 (i 0) (i 1)

end Cert.Lstm.Ref

end
-- ==== Proof.lean ====
/-
  An LSTM-cell kernel against its plain reference: both compute one LSTM step.

  With `z_g = x·W_ig + h·W_hg + b_ig + b_hg` for each of the four gates g ∈ {i, f, g, o}, both programs return
  `h' = σ(z_o)·tanh(c')` and `c' = σ(z_f)·c + σ(z_i)·tanh(z_g)`, with σ the logistic function.

  The kernel walks the 16384 rows in 16 blocks of 1024; per block it takes the eight 1024×512 by 512×512 products one
  gate at a time (operands rounded to bf16, which is the identity on the extended reals), adds the row of the gate's two
  biases summed beforehand, and applies the logistic function and tanh as single operations. The reference joins the four
  gates' weights and biases side by side, takes two big products, adds the two joined bias vectors one after the other,
  splits the 2048 columns back into the gates and spells the logistic function as `1 / (1 + e^(-z))`.

  On the extended reals these are one function: column `512·g + j` of a joined matrix is column `j` of gate g's
  matrix; adding two biases in turn is adding their sum (associativity of +, which holds on all extended reals, so
  the inputs' finiteness is never used); and the logistic function IS that quotient, at ±∞ too. The specification is
  Proof/LstmSpec.lean; Proof/KernelValue.lean shows the kernel's two result arrays end holding it, Proof/RefIsSpec.lean
  that the reference's two results are it. The three frame claims are the generated frame runs; the ideal pass rewrote
  nothing, so `preserves` is `True`.
-/
import proofs.«100056_j56435870269511_2_alg».proof.Defs
import proofs.«100056_j56435870269511_2_alg».proof.Proof.Gen.Kernel
import proofs.«100056_j56435870269511_2_alg».proof.Proof.Gen.Kernel.Frame
import proofs.«100056_j56435870269511_2_alg».proof.Proof.Gen.KernelIdeal
import proofs.«100056_j56435870269511_2_alg».proof.Proof.Gen.KernelIdeal.Frame
import proofs.«100056_j56435870269511_2_alg».proof.Proof.Gen.KernelIdeal.Value
import proofs.«100056_j56435870269511_2_alg».proof.Proof.Gen.ReferenceIdeal
import proofs.«100056_j56435870269511_2_alg».proof.Proof.Gen.ReferenceIdeal.Run
import proofs.«100056_j56435870269511_2_alg».proof.Proof.Gen.ReferenceIdeal.Read
import proofs.«100056_j56435870269511_2_alg».proof.Proof.Gen.Pre_finite_inputs
import proofs.«100056_j56435870269511_2_alg».proof.Proof.KernelValue
import proofs.«100056_j56435870269511_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the nineteen arguments the kernel's two result arrays and the reference's two results
    are the new hidden state and the new cell state of one LSTM step of those arguments. -/
theorem algebraic : Cert.algebraic_KernelIdeal_ReferenceIdeal := by
  intro m ρ m' ρ' _ hagree
  refine ⟨_, _, Cert.Lstm.Kernel.run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10, e11, e12, e13, e14, e15, e16, e17, e18⟩ := hagree c
  refine ⟨(h c).1.trans ?_, (h c).2.1.trans ?_, (h c).2.2⟩
  · rw [Cert.ReferenceIdeal.Read.val_main_v40_eq, Cert.Lstm.Ref.ref_hidden, e0, e1, e2, e3, e4, e5, e6, e7, e8, e9, e10, e11, e12, e13, e14, e15, e16, e17, e18]
    rfl
  · rw [Cert.ReferenceIdeal.Read.val_main_v38_eq, Cert.Lstm.Ref.ref_cell, e0, e1, e2, e3, e4, e5, e6, e7, e8, e9, e10, e11, e12, e13, e14, e15, e16, e17, e18]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
